-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1x1x2048x2048 : Shape := ⟨4, ![1, 1, 2048, 2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  main_v18

def fn {F : FTy → Type} [FloatOps F] (main_arg0 : FVec F S4x2048x1024 .f32) (main_arg1 : FVec F S4x2048x1024 .f32) (main_arg2 : FVec F S4x2048x1024 .f32) (main_arg3 : FVec F S1x1x2048x2048 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_v13 main_v16
-- ==== Kernel.lean ====
abbrev S4x2048x1024 : Shape := ⟨3, ![4, 2048, 1024]⟩
abbrev S1x1x2048x2048 : Shape := ⟨4, ![1, 1, 2048, 2048]⟩
abbrev S4x2048x64x16 : Shape := ⟨4, ![4, 2048, 64, 16]⟩
abbrev S4x16x2048x64 : Shape := ⟨4, ![4, 16, 2048, 64]⟩
abbrev S64x2048x64 : Shape := ⟨3, ![64, 2048, 64]⟩
abbrev S2048x2048 : Shape := ⟨2, ![2048, 2048]⟩
abbrev S1x512x64 : Shape := ⟨3, ![1, 512, 64]⟩
abbrev S1x2048x64 : Shape := ⟨3, ![1, 2048, 64]⟩
abbrev S512x2048 : Shape := ⟨2, ![512, 2048]⟩
abbrev S512x64 : Shape := ⟨2, ![512, 64]⟩
abbrev S2048x64 : Shape := ⟨2, ![2048, 64]⟩
abbrev S512 : Shape := ⟨1, ![512]⟩
abbrev S512x1 : Shape := ⟨2, ![512, 1]⟩

abbrev nBuf : Space → Nat
  | .hbm => 20
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x1x2048x2048, .f32⟩
  | .hbm, ⟨4, _⟩ => ⟨S4x2048x64x16, .f32⟩
  | .hbm, ⟨5, _⟩ => ⟨S4x16x2048x64, .f32⟩
  | .hbm, ⟨6, _⟩ => ⟨S64x2048x64, .f32⟩
  | .hbm, ⟨7, _⟩ => ⟨S64x2048x64, .bf16⟩
  | .hbm, ⟨8, _⟩ => ⟨S4x2048x64x16, .f32⟩
  | .hbm, ⟨9, _⟩ => ⟨S4x16x2048x64, .f32⟩
  | .hbm, ⟨10, _⟩ => ⟨S64x2048x64, .f32⟩
  | .hbm, ⟨11, _⟩ => ⟨S64x2048x64, .bf16⟩
  | .hbm, ⟨12, _⟩ => ⟨S4x2048x64x16, .f32⟩
  | .hbm, ⟨13, _⟩ => ⟨S4x16x2048x64, .f32⟩
  | .hbm, ⟨14, _⟩ => ⟨S64x2048x64, .f32⟩
  | .hbm, ⟨15, _⟩ => ⟨S64x2048x64, .bf16⟩
  | .hbm, ⟨16, _⟩ => ⟨S2048x2048, .f32⟩
  | .hbm, ⟨17, _⟩ => ⟨S64x2048x64, .f32⟩
  | .hbm, ⟨18, _⟩ => ⟨S4x16x2048x64, .f32⟩
  | .hbm, ⟨19, _⟩ => ⟨S4x2048x1024, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S512x2048, .f32⟩
  | .local _ .vmem, ⟨7, _⟩ => ⟨S512x2048, .f32⟩
  | .local _ .vmem, ⟨8, _⟩ => ⟨S1x512x64, .f32⟩
  | .local _ .vmem, ⟨9, _⟩ => ⟨S1x512x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x1024_S4x2048x64x16 : S4x2048x1024.ShapeCasts S4x2048x64x16
  transposes_S4x2048x64x16_S4x16x2048x64_0_3_1_2 : S4x2048x64x16.Transposes [0, 3, 1, 2] S4x16x2048x64
  shapeCasts_S4x16x2048x64_S64x2048x64 : S4x16x2048x64.ShapeCasts S64x2048x64
  bitsLt_bf16_f32 : FTy.bits .bf16 < FTy.bits .f32
  shapeCasts_S1x1x2048x2048_S2048x2048 : S1x1x2048x2048.ShapeCasts S2048x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S64x2048x64_S4x16x2048x64 : S64x2048x64.ShapeCasts S4x16x2048x64
  shapeCasts_S4x16x2048x64_S4x2048x1024 : S4x16x2048x64.ShapeCasts S4x2048x1024
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .bf16 = 32 ∨ (Rect.block (s := S64x2048x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .bf16 = 32 ∨ (Rect.block (s := S64x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .bf16 = 32 ∨ (Rect.block (s := S64x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .f32 = 32 ∨ (Rect.block (s := S2048x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x2048x64.size a
  hwx0_4 : ∀ i : grid0.Coords, EltTy.bits .f32 = 32 ∨ (Rect.block (s := S64x2048x64) S1x512x64.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v3) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1x1x2048x2048 : Shape := ⟨4, ![1, 1, 2048, 2048]⟩
abbrev S4x2048x64x16 : Shape := ⟨4, ![4, 2048, 64, 16]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x1x2048x2048, .f32⟩
  | .hbm, ⟨4, _⟩ => ⟨S4x2048x64x16, .f32⟩
  | .hbm, ⟨5, _⟩ => ⟨S4x16x2048x64, .f32⟩
  | .hbm, ⟨6, _⟩ => ⟨S4x2048x64x16, .f32⟩
  | .hbm, ⟨7, _⟩ => ⟨S4x16x2048x64, .f32⟩
  | .hbm, ⟨8, _⟩ => ⟨S4x16x2048x2048, .f32⟩
  | .hbm, ⟨9, _⟩ => ⟨S_, .f32⟩
  | .hbm, ⟨10, _⟩ => ⟨S4x16x2048x2048, .f32⟩
  | .hbm, ⟨11, _⟩ => ⟨S4x16x2048x2048, .f32⟩
  | .hbm, ⟨12, _⟩ => ⟨S4x16x2048x2048, .f32⟩
  | .hbm, ⟨13, _⟩ => ⟨S4x16x2048x2048, .f32⟩
  | .hbm, ⟨14, _⟩ => ⟨S_, .f32⟩
  | .hbm, ⟨15, _⟩ => ⟨S4x16x2048, .f32⟩
  | .hbm, ⟨16, _⟩ => ⟨S_, .f32⟩
  | .hbm, ⟨17, _⟩ => ⟨S4x16x2048, .f32⟩
  | .hbm, ⟨18, _⟩ => ⟨S4x16x2048, .f32⟩
  | .hbm, ⟨19, _⟩ => ⟨S4x16x2048x1, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S4x16x2048x1, .f32⟩
  | .hbm, ⟨26, _⟩ => ⟨S4x16x2048x2048, .f32⟩
  | .hbm, ⟨27, _⟩ => ⟨S4x16x2048x2048, .f32⟩
  | .hbm, ⟨28, _⟩ => ⟨S4x2048x64x16, .f32⟩
  | .hbm, ⟨29, _⟩ => ⟨S4x16x2048x64, .f32⟩
  | .hbm, ⟨30, _⟩ => ⟨S4x16x2048x64, .f32⟩
  | .hbm, ⟨31, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  shapeCasts_S4x2048x1024_S4x2048x64x16 : S4x2048x1024.ShapeCasts S4x2048x64x16
  transposes_S4x2048x64x16_S4x16x2048x64_0_3_1_2 : S4x2048x64x16.Transposes [0, 3, 1, 2] S4x16x2048x64
  bcast_S_S4x16x2048x2048 : S_.BroadcastsInDim S4x16x2048x2048 (![] : Fin 0 → Fin S4x16x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  shapeCasts_S4x16x2048x64_S4x2048x1024 : S4x16x2048x64.ShapeCasts S4x2048x1024
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Softmax.lean ====
/-
  One row of scaled dot-product attention with a subtracted bias, on the extended reals.

  For a query row `q : Fin 64 → EReal`, the keys `k : Fin 2048 → Fin 64 → EReal` and a bias row `b`, the score of key `m` is
  `(∑ d, q d * k m d) / 8 - b m`. The row is then normalised by the softmax taken with the row's maximum subtracted:
  `p m = exp (s m - max s) / ∑ k, exp (s k - max s)`, and the output at a value column `w` is `∑ m, p m * w m`.
  The maximum is the fold of `max` from the float pattern of `-∞`; the quotient by `8` is the exact extended-real
  quotient, which is the product with `1/8` on every extended real (`scale_eq`): this is the one law by which the two
  programs' spellings of the score differ.
-/
import Idealize.ShloMosaic.PureOps.Ideal
import Idealize.ShloMosaic.PureOps.Ideal.Laws

noncomputable section

open scoped BigOperators

namespace Cert.Attention

open Idealize.ShloMosaic

/-- The f32 pattern of `-∞`, from which a row's maximum is folded. -/
abbrev negInf : EReal := Ideal.ofBits .f32 0xFF800000#32
/-- The f32 pattern `8.0`, the square root of the head dimension 64. -/
abbrev eight : EReal := Ideal.ofBits .f32 0x41000000#32
/-- The f32 pattern `0.125`. -/
abbrev eighth : EReal := Ideal.ofBits .f32 0x3E000000#32

/-- The pattern `8.0` denotes the real `8`. -/
theorem eight_eq : eight = ((8 : ℝ) : EReal) := by
  simp [eight, Ideal.ofBits, Ideal.ieee, -EReal.coe_mul]; norm_num

/-- The pattern `0.125` denotes the real `1/8`: a power of two, so exactly. -/
theorem eighth_eq : eighth = ((1 / 8 : ℝ) : EReal) := by
  simp [eighth, Ideal.ofBits, Ideal.ieee, -EReal.coe_mul]; norm_num

/-- Scaling by `0.125` is dividing by `8`, on every extended real (the infinities included: both sides are the
    product with the positive real `1/8`). -/
theorem scale_eq (x : EReal) : x * eighth = Ideal.div x eight := by
  rw [eight_eq, eighth_eq, Ideal.div_coe (by norm_num : (8 : ℝ) ≠ 0)]

/-- A row's maximum: the fold of `max` over the row from `-∞`. -/
def rowMax (s : Fin 2048 → EReal) : EReal := (Finset.univ : Finset (Fin 2048)).fold max negInf s

/-- The row's maximum is at least the value the fold starts from. -/
theorem negInf_le_rowMax (s : Fin 2048 → EReal) : negInf ≤ rowMax s := by
  unfold rowMax
  exact (Finset.le_fold_max _).2 (Or.inl le_rfl)

/-- So taking the maximum with that starting value once more changes nothing. -/
theorem max_negInf_rowMax (s : Fin 2048 → EReal) : max negInf (rowMax s) = rowMax s :=
  max_eq_right (negInf_le_rowMax s)

/-- The shifted exponential of entry `m`. -/
def rowExp (s : Fin 2048 → EReal) (m : Fin 2048) : EReal := Ideal.exp (s m - rowMax s)

/-- The softmax weight of entry `m`. -/
def rowProb (s : Fin 2048 → EReal) (m : Fin 2048) : EReal := Ideal.div (rowExp s m) (∑ k : Fin 2048, rowExp s k)

/-- The weighted sum of a value column `w` by the softmax of the score row `s`. -/
def attnRow (s w : Fin 2048 → EReal) : EReal := ∑ m : Fin 2048, rowProb s m * w m

/-- The score row of a query row `q` against the keys `k`, the bias row `b` subtracted. -/
def scoreRow (q : Fin 64 → EReal) (k : Fin 2048 → Fin 64 → EReal) (b : Fin 2048 → EReal) (m : Fin 2048) : EReal :=
  Ideal.div (∑ d : Fin 64, q d * k m d) eight - b m

end Cert.Attention

end
-- ==== Proof.KernelBody.lean ====
/-
  What the kernel body stores, read at an index.

  At one grid point the body holds a [1, 512, 64] block of queries, the [1, 2048, 64] keys and values of one head and a
  [512, 2048] block of the bias. It forms the 512 × 2048 scores (the product of the query block with the transposed keys,
  times 0.125, minus the bias), takes each row's maximum, exponentiates the shifted scores, sums each row, divides, and
  multiplies the 512 × 2048 weights into the values. Each step is named here as a function of the loaded blocks and read
  at an index; entry (r, v) of the stored block is then the softmax row of query r applied to column v of the values
  (Softmax.lean's `attnRow`), the scaling by 0.125 read as the quotient by 8 (`scale_eq`). The narrowing of the weights to
  bf16 is the identity on extended reals.
-/
import proofs.«156870_j36146444763439_2_alg».proof.Proof.Gen.KernelIdeal.Skeleton
import proofs.«156870_j36146444763439_2_alg».proof.Proof.Softmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Attention

/-! ## The two matrix products at an index -/

theorem qk_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The query block times the transposed keys, into a zero accumulator: entry (r, m) is the dot product of query row r
    and key row m over the 64 head coordinates. -/
theorem qk_apply (a : FVec Ideal S512x64 .bf16) (k : FVec Ideal S2048x64 .bf16) (r : Fin 512) (m : Fin 2048) :
    matmul dot_S512x64_S2048x64_S512x2048_1_1_0_0_n_n none a k (constant S512x2048 .f32 0x00000000#32) (ix2 r m)
      = ∑ d : Fin 64, a (ix2 r d) * k (ix2 m d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 r m) ((ValueIdx.contrEquiv1 dot_S512x64_S2048x64_S512x2048_1_1_0_0_n_n 64 rfl rfl).symm d) = ix2 r d := funext fun c => Fin.ext (by
    match c with
    | ⟨0, _⟩ => exact qk_lhs0 _ _
    | ⟨1, _⟩ => exact (qk_lhs1 _ _).trans hk)
  have er : dot_S512x64_S2048x64_S512x2048_1_1_0_0_n_n.rhsIdx (ix2 r m) ((ValueIdx.contrEquiv1 dot_S512x64_S2048x64_S512x2048_1_1_0_0_n_n 64 rfl rfl).symm d) = ix2 m d := funext fun c => Fin.ext (by
    match c with
    | ⟨0, _⟩ => exact qk_rhs0 _ _
    | ⟨1, _⟩ => exact (qk_rhs1 _ _).trans hk)
  rw [el, er]

theorem pv_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The weights times the values, into a zero accumulator: entry (r, v) is the sum over the 2048 keys of the weight of
    key m in row r times entry (m, v) of the values. -/
theorem pv_apply (p : FVec Ideal S512x2048 .bf16) (w : FVec Ideal S2048x64 .bf16) (r : Fin 512) (v : Fin 64) :
    matmul dot_S512x2048_S2048x64_S512x64_1_0_0_1_n_n none p w (constant S512x64 .f32 0x00000000#32) (ix2 r v)
      = ∑ m : Fin 2048, p (ix2 r m) * w (ix2 m v) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun m _ => ?_
  have hk := ValueIdx.contrEquiv1_symm_val dot_S512x2048_S2048x64_S512x64_1_0_0_1_n_n 2048 rfl rfl m
  have el : dot_S512x2048_S2048x64_S512x64_1_0_0_1_n_n.lhsIdx (ix2 r v) ((ValueIdx.contrEquiv1 dot_S512x2048_S2048x64_S512x64_1_0_0_1_n_n 2048 rfl rfl).symm m) = ix2 r m := funext fun c => Fin.ext (by
    match c with
    | ⟨0, _⟩ => exact pv_lhs0 _ _
    | ⟨1, _⟩ => exact (pv_lhs1 _ _).trans hk)
  have er : dot_S512x2048_S2048x64_S512x64_1_0_0_1_n_n.rhsIdx (ix2 r v) ((ValueIdx.contrEquiv1 dot_S512x2048_S2048x64_S512x64_1_0_0_1_n_n 2048 rfl rfl).symm m) = ix2 m v := funext fun c => Fin.ext (by
    match c with
    | ⟨0, _⟩ => exact (pv_rhs0 _ _).trans hk
    | ⟨1, _⟩ => exact pv_rhs1 _ _)
  rw [el, er]

/-! ## A row statistic kept as a column and broadcast back along the row -/

/-- Key `k` inserted into the row index r of the reduced axis is (r, k). -/
theorem lift_eq (r : Fin 512) (k : Fin 2048) : reduces_S512x2048_S512.lift (ix1 r) k = ix2 r k :=
  funext fun a => Fin.ext (by match a with | ⟨0, _⟩ => rfl | ⟨1, _⟩ => rfl)

/-- A per-row value, viewed as a [512, 1] column and broadcast along the 2048 keys, reads its row's value everywhere. -/
theorem col_apply (c : S512.Idx → EReal) (r : Fin 512) (m : Fin 2048) :
    broadcastTo S512x2048 (shapeCast S512x1 c shapeCasts_S512_S512x1) broadcasts_S512x1_S512x2048 (ix2 r m) = c (ix1 r) := by
  rw [broadcastTo_apply _ broadcasts_S512x1_S512x2048 (ix2 r m) (ix2 r (0 : Fin 1)) (fun a => by
    match a with
    | ⟨0, _⟩ => show r.val = if (512 : Nat) = 1 then 0 else r.val; rw [if_neg (by decide)]
    | ⟨1, _⟩ => show 0 = if (1 : Nat) = 1 then 0 else m.val; rw [if_pos rfl])]
  exact shapeCast_apply c shapeCasts_S512_S512x1 _ _ (by
    rw [Shape.rowMajor_val_one, Shape.rowMajor_val_two]
    show r.val = r.val * 1 + 0
    omega)

/-! ## The body's steps -/

variable (x0 : FVec Ideal S1x512x64 .bf16) (x1 x2 : FVec Ideal S1x2048x64 .bf16) (x3 : FVec Ideal S512x2048 .f32)

/-- The scores: query block times transposed keys, times 0.125, minus the bias block. -/
def scores : FVec Ideal S512x2048 .f32 :=
  subf (mulf (matmul dot_S512x64_S2048x64_S512x2048_1_1_0_0_n_n none
        (shapeCast S512x64 x0 shapeCasts_S1x512x64_S512x64 : FVec Ideal S512x64 .bf16)
        (shapeCast S2048x64 x1 shapeCasts_S1x2048x64_S2048x64 : FVec Ideal S2048x64 .bf16)
        (constant S512x2048 .f32 0x00000000#32))
      (broadcast S512x2048 (Scalar.ofBits (F := Ideal) .f32 0x3E000000#32)))
    (shapeCast S512x2048 x3 shapeCasts_S512x2048_S512x2048)

/-- Each row's maximum. -/
def maxes : FVec Ideal S512 .f32 :=
  multiReduction .maximumf [1] S512 (scores x0 x1 x3) 0xFF800000#32 reduces_S512x2048_S512 (.inl rfl) rfl

/-- The shifted exponentials. -/
def exps : FVec Ideal S512x2048 .f32 :=
  exp (subf (scores x0 x1 x3) (broadcastTo S512x2048 (shapeCast S512x1 (maxes x0 x1 x3) shapeCasts_S512_S512x1) broadcasts_S512x1_S512x2048))

/-- Each row's sum of them. -/
def sums : FVec Ideal S512 .f32 :=
  multiReduction .add [1] S512 (exps x0 x1 x3) 0x00000000#32 reduces_S512x2048_S512 (.inl rfl) rfl

/-- The softmax weights. -/
def probs : FVec Ideal S512x2048 .f32 :=
  divf (exps x0 x1 x3) (broadcastTo S512x2048 (shapeCast S512x1 (sums x0 x1 x3) shapeCasts_S512_S512x1) broadcasts_S512x1_S512x2048)

/-- The weights, narrowed to bf16, times the values. -/
def outs : FVec Ideal S512x64 .f32 :=
  matmul dot_S512x2048_S2048x64_S512x64_1_0_0_1_n_n none (truncf .bf16 (probs x0 x1 x3) bitsLt_bf16_f32)
    (shapeCast S2048x64 x2 shapeCasts_S1x2048x64_S2048x64 : FVec Ideal S2048x64 .bf16) (constant S512x64 .f32 0x00000000#32)

/-- The stored value is those steps, with the block's leading unit axis put back. -/
theorem pay_eq : k0_pay1 (F := Ideal) x0 x1 x2 x3 = shapeCast S1x512x64 (outs x0 x1 x2 x3) shapeCasts_S512x64_S1x512x64 := rfl

/-- The scores of query row r of the block. -/
abbrev sRow (r : Fin 512) : Fin 2048 → EReal := fun m => scores x0 x1 x3 (ix2 r m)

theorem scores_apply (r : Fin 512) (m : Fin 2048) :
    scores x0 x1 x3 (ix2 r m)
      = scoreRow (fun d => x0 (ix3 (0 : Fin 1) r d)) (fun m' d => x1 (ix3 (0 : Fin 1) m' d)) (fun m' => x3 (ix2 r m')) m := by
  unfold scores scoreRow
  rw [subf_apply, mulf_apply, broadcast_apply, shapeCast_self, qk_apply]
  simp only [shapeCast_1ab_ab_apply]
  exact congrArg (· - x3 (ix2 r m)) (scale_eq _)

theorem maxes_apply (r : Fin 512) : maxes x0 x1 x3 (ix1 r) = rowMax (sRow x0 x1 x3 r) := by
  unfold maxes
  refine (Ideal.multiReduction_maximumf_single (scores x0 x1 x3) 0xFF800000#32 reduces_S512x2048_S512 _ _ (ix1 r)).trans ?_
  have e : (scores x0 x1 x3 ∘ reduces_S512x2048_S512.lift (ix1 r)) = sRow x0 x1 x3 r :=
    funext fun k => congrArg (scores x0 x1 x3) (lift_eq r k)
  rw [e]
  rfl

theorem exps_apply (r : Fin 512) (m : Fin 2048) : exps x0 x1 x3 (ix2 r m) = rowExp (sRow x0 x1 x3 r) m := by
  unfold exps
  show FloatOps.exp (FloatOps.subf (scores x0 x1 x3 (ix2 r m))
    (broadcastTo S512x2048 (shapeCast S512x1 (maxes x0 x1 x3) shapeCasts_S512_S512x1) broadcasts_S512x1_S512x2048 (ix2 r m))) = _
  rw [col_apply, maxes_apply]
  rfl

theorem sums_apply (r : Fin 512) : sums x0 x1 x3 (ix1 r) = ∑ k : Fin 2048, rowExp (sRow x0 x1 x3 r) k := by
  unfold sums
  refine (Ideal.multiReduction_add_single (exps x0 x1 x3) 0x00000000#32 reduces_S512x2048_S512 _ _ (ix1 r)).trans ?_
  show (∑ k : Fin 2048, exps x0 x1 x3 (reduces_S512x2048_S512.lift (ix1 r) k)) = _
  simp only [lift_eq, exps_apply]

theorem probs_apply (r : Fin 512) (m : Fin 2048) : probs x0 x1 x3 (ix2 r m) = rowProb (sRow x0 x1 x3 r) m := by
  unfold probs
  show FloatOps.divf (exps x0 x1 x3 (ix2 r m))
    (broadcastTo S512x2048 (shapeCast S512x1 (sums x0 x1 x3) shapeCasts_S512_S512x1) broadcasts_S512x1_S512x2048 (ix2 r m)) = _
  rw [col_apply, sums_apply, exps_apply]
  rfl

theorem outs_apply (r : Fin 512) (v : Fin 64) :
    outs x0 x1 x2 x3 (ix2 r v) = attnRow (sRow x0 x1 x3 r) (fun m => x2 (ix3 (0 : Fin 1) m v)) := by
  unfold outs attnRow
  rw [pv_apply]
  refine Finset.sum_congr rfl fun m _ => ?_
  rw [truncf_apply, probs_apply, shapeCast_1ab_ab_apply]

/-- ENTRY (r, v) OF THE STORED BLOCK: the softmax row of query r of the block against the 2048 keys, applied to column
    v of the values. -/
theorem pay_apply (u : Fin 1) (r : Fin 512) (v : Fin 64) :
    k0_pay1 (F := Ideal) x0 x1 x2 x3 (ix3 u r v)
      = attnRow (scoreRow (fun d => x0 (ix3 (0 : Fin 1) r d)) (fun m d => x1 (ix3 (0 : Fin 1) m d)) (fun m => x3 (ix2 r m)))
          (fun m => x2 (ix3 (0 : Fin 1) m v)) := by
  rw [pay_eq, shapeCast_ab_1ab_apply, outs_apply]
  have hs : sRow x0 x1 x3 r
      = scoreRow (fun d => x0 (ix3 (0 : Fin 1) r d)) (fun m' d => x1 (ix3 (0 : Fin 1) m' d)) (fun m' => x3 (ix2 r m')) :=
    funext fun m' => scores_apply x0 x1 x3 r m'
  rw [hs]

end Cert.KernelIdeal.Body

end
-- ==== Proof.HeadLayout.lean ====
/-
  Attention over all heads, in the two arrangements of the batch and head axes the programs use, and the passage
  between them.

  `attn3` takes the queries, keys and values as [64, 2048, 64] arrays — the 4 batches and 16 heads merged into one
  leading axis of 64 — and the bias as a [2048, 2048] matrix; `attnHeads` takes them as [4, 16, 2048, 64] arrays and the
  bias as [1, 1, 2048, 2048]. Entry (g, n, v), respectively (b, h, n, v), is the softmax row of query n against all 2048
  keys of its head, applied to column v of the head's values (Softmax.lean). Merging or splitting the two leading axes
  is a reshape, which keeps row-major positions: (b, h, n, d) and (16 b + h, n, d) are one position, and the bias
  entries (0, 0, n, m) and (n, m) likewise. So the two arrangements are one function (`heads_eq`).
-/
import proofs.«156870_j36146444763439_2_alg».proof.Proof.Softmax
import Idealize.ShloMosaic.Lib.ValueIdx
import Idealize.ShloMosaic.Lib.Pipeline.Value

noncomputable section

open scoped BigOperators

namespace Cert.Attention

open Idealize.ShloMosaic Idealize.ShloMosaic.ValueIdx

/-- Heads merged: [64, 2048, 64]. -/
abbrev SG : Shape := ⟨3, ![64, 2048, 64]⟩
/-- Batches and heads apart: [4, 16, 2048, 64]. -/
abbrev SH : Shape := ⟨4, ![4, 16, 2048, 64]⟩
/-- The bias as a matrix. -/
abbrev SB2 : Shape := ⟨2, ![2048, 2048]⟩
/-- The bias with its two unit axes. -/
abbrev SB4 : Shape := ⟨4, ![1, 1, 2048, 2048]⟩

/-- An argument as the programs take it: [4, 2048, 1024]. -/
abbrev SA : Shape := ⟨3, ![4, 2048, 1024]⟩
/-- Its last axis split into 64 head coordinates times 16 heads. -/
abbrev SM : Shape := ⟨4, ![4, 2048, 64, 16]⟩

/-- An argument split into heads: the last axis read as (coordinate, head), the head axis moved next to the batch axis. -/
def heads (x : SA.Idx → EReal) (h1 : SA.ShapeCasts SM) (h2 : SM.Transposes [0, 3, 1, 2] SH) : SH.Idx → EReal :=
  transpose SH [0, 3, 1, 2] (shapeCast SM x h1) h2

/-- Attention with the heads merged into one leading axis. -/
def attn3 (Q K V : SG.Idx → EReal) (B : SB2.Idx → EReal) : SG.Idx → EReal := fun i =>
  attnRow (scoreRow (fun d => Q (ix3 (i 0) (i 1) d)) (fun m d => K (ix3 (i 0) m d)) (fun m => B (ix2 (i 1) m)))
    (fun m => V (ix3 (i 0) m (i 2)))

/-- Attention with the batch and head axes apart. -/
def attnHeads (Q K V : SH.Idx → EReal) (B : SB4.Idx → EReal) : SH.Idx → EReal := fun i =>
  attnRow (scoreRow (fun d => Q (ix4 (i 0) (i 1) (i 2) d)) (fun m d => K (ix4 (i 0) (i 1) m d))
      (fun m => B (ix4 (0 : Fin 1) (0 : Fin 1) (i 2) m)))
    (fun m => V (ix4 (i 0) (i 1) m (i 3)))

/-- Splitting the merged axis: entry (b, h, n, d) of the split array is entry (16 b + h, n, d) of the merged one. -/
theorem split_apply (X : SG.Idx → EReal) (h : SG.ShapeCasts SH) (i : SH.Idx) (j : SG.Idx)
    (h0 : (j 0).val = (i 0).val * 16 + (i 1).val) (h1 : (j 1).val = (i 2).val) (h2 : (j 2).val = (i 3).val) :
    shapeCast SH X h i = X j :=
  shapeCast_apply X h i j (by
    rw [Shape.rowMajor_val_three, Shape.rowMajor_val_four, h0, h1, h2]
    rfl)

/-- Merging the two axes: entry (16 b + h, n, d) of the merged array is entry (b, h, n, d) of the split one. -/
theorem merge_apply (X : SH.Idx → EReal) (h : SH.ShapeCasts SG) (j : SG.Idx) (i : SH.Idx)
    (h0 : (j 0).val = (i 0).val * 16 + (i 1).val) (h1 : (j 1).val = (i 2).val) (h2 : (j 2).val = (i 3).val) :
    shapeCast SG X h j = X i :=
  shapeCast_apply X h j i (by
    rw [Shape.rowMajor_val_three, Shape.rowMajor_val_four, h0, h1, h2]
    rfl)

/-- Dropping the bias's two unit axes: entry (n, m) of the matrix is entry (0, 0, n, m). -/
theorem bias_apply (B : SB4.Idx → EReal) (h : SB4.ShapeCasts SB2) (n m : Fin 2048) :
    shapeCast SB2 B h (ix2 n m) = B (ix4 (0 : Fin 1) (0 : Fin 1) n m) :=
  shapeCast_apply B h _ _ (by
    rw [Shape.rowMajor_val_two, Shape.rowMajor_val_four]
    show ((0 * 1 + 0) * 2048 + n.val) * 2048 + m.val = n.val * 2048 + m.val
    omega)

/-- The merged index of a split one. -/
abbrev mergeIdx (i : SH.Idx) : SG.Idx :=
  ix3 (⟨(i 0).val * 16 + (i 1).val, by have h0 : (i 0).val < 4 := (i 0).isLt; have h1 : (i 1).val < 16 := (i 1).isLt; show _ < 64; omega⟩ : Fin 64) (i 2) (i 3)

/-- THE TWO ARRANGEMENTS ARE ONE FUNCTION: attention over the merged arrays of split operands, split again, is attention
    over the split operands. -/
theorem heads_eq (Q K V : SH.Idx → EReal) (B : SB4.Idx → EReal) (hm : SH.ShapeCasts SG) (hb : SB4.ShapeCasts SB2)
    (hs : SG.ShapeCasts SH) :
    shapeCast SH (attn3 (shapeCast SG Q hm) (shapeCast SG K hm) (shapeCast SG V hm) (shapeCast SB2 B hb)) hs
      = attnHeads Q K V B := by
  funext i
  rw [split_apply _ hs i (mergeIdx i) rfl rfl rfl]
  unfold attn3 attnHeads
  have eQ : ∀ d : Fin 64, shapeCast SG Q hm (ix3 ((mergeIdx i) 0) ((mergeIdx i) 1) d) = Q (ix4 (i 0) (i 1) (i 2) d) :=
    fun d => merge_apply Q hm _ _ rfl rfl rfl
  have eK : ∀ (m : Fin 2048) (d : Fin 64), shapeCast SG K hm (ix3 ((mergeIdx i) 0) m d) = K (ix4 (i 0) (i 1) m d) :=
    fun m d => merge_apply K hm _ _ rfl rfl rfl
  have eV : ∀ m : Fin 2048, shapeCast SG V hm (ix3 ((mergeIdx i) 0) m ((mergeIdx i) 2)) = V (ix4 (i 0) (i 1) m (i 3)) :=
    fun m => merge_apply V hm _ _ rfl rfl rfl
  have eB : ∀ m : Fin 2048, shapeCast SB2 B hb (ix2 ((mergeIdx i) 1) m) = B (ix4 (0 : Fin 1) (0 : Fin 1) (i 2) m) :=
    fun m => bias_apply B hb _ m
  simp only [eQ, eK, eV, eB]

end Cert.Attention

end
-- ==== Proof.KernelBlocks.lean ====
/-
  From the blocks the grid points write to the kernel program's result.

  The grid has 4 × 64 points; point t works on head `t mod 64` and on query rows `512 (t / 64) … 512 (t / 64) + 511`: it
  is handed that block of the queries, the head's whole keys and values, and those rows of the bias, and writes that block of
  the output array. The index maps are decided once over the 256 points (`idx_facts`). With KernelBody.lean's reading of
  the stored block, what point t writes back is block t of ONE function of the arrays the region finds — `attn3` of the
  merged-head queries, keys, values and the bias matrix (`flushed_eq`) —, the 256 blocks tile the [64, 2048, 64] output
  (`cover`), and so the output array ends holding that function (`final`). Before the region the host splits the three
  arguments into heads, merges batch and head axes and narrows to bf16 (the identity on extended reals), and drops the bias's
  unit axes; after it the host splits the merged axis again and reshapes to [4, 2048, 1024]. By HeadLayout.lean the
  result is the head-split attention of the arguments, reshaped (`result_eq`, `run`).
-/
import proofs.«156870_j36146444763439_2_alg».proof.Proof.Gen.KernelIdeal.Frame
import proofs.«156870_j36146444763439_2_alg».proof.Proof.KernelBody
import proofs.«156870_j36146444763439_2_alg».proof.Proof.HeadLayout
import Idealize.ShloMosaic.Lib.Pipeline.Value
import Idealize.ShloMosaic.Lib.StableHlo.Run

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps in closed form, decided over the 256 grid points: point t is head `t mod 64`, query block `t / 64`. -/
theorem idx_facts : ∀ t : Fin cfg0.N,
    win0_4.index t (0 : Fin 3) = t.val % 64 ∧ win0_4.index t (1 : Fin 3) = t.val / 64 ∧ win0_4.index t (2 : Fin 3) = 0
    ∧ win0_0.index t (0 : Fin 3) = t.val % 64 ∧ win0_0.index t (1 : Fin 3) = t.val / 64 ∧ win0_0.index t (2 : Fin 3) = 0
    ∧ win0_1.index t (0 : Fin 3) = t.val % 64 ∧ win0_1.index t (1 : Fin 3) = 0 ∧ win0_1.index t (2 : Fin 3) = 0
    ∧ win0_2.index t (0 : Fin 3) = t.val % 64 ∧ win0_2.index t (1 : Fin 3) = 0 ∧ win0_2.index t (2 : Fin 3) = 0
    ∧ win0_3.index t (0 : Fin 2) = t.val / 64 ∧ win0_3.index t (1 : Fin 2) = 0 :=
  (by decide +kernel : ∀ t : Fin grid0.N, _)

/-- What the output array ends holding: attention over the merged-head arrays the region finds. -/
abbrev G (c : Dev nD) : SG.Idx → EReal :=
  attn3 (V m c main_v3) (V m c main_v7) (V m c main_v11) (V m c main_v12)

/-! ## Each window's block at a point, as entries of its array -/

/-- The query block at point t: rows `512 (t / 64) + r` of head `t mod 64`. -/
theorem iblk0_apply (c : Dev nD) (t : Fin cfg0.N) (x : S1x512x64.Idx) (k : SG.Idx)
    (h0 : (k 0).val = t.val % 64) (h1 : (k 1).val = t.val / 64 * 512 + (x 1).val) (h2 : (k 2).val = (x 2).val) :
    (iblk m c 0 t : FVec Ideal S1x512x64 .bf16) x = (V m c main_v3 : SG.Idx → EReal) k := by
  obtain ⟨-, -, -, e0, e1, e2, -⟩ := idx_facts t
  unfold iblk
  rw [View.read_apply]
  show V m c main_v3 _ = V m c main_v3 _
  refine congrArg (V m c main_v3) (funext fun a => Fin.ext ?_)
  have b0 : (x 0).val < 1 := (x 0).isLt
  match a with
  | ⟨0, _⟩ => show win0_0.index t (0 : Fin 3) * 1 + 1 * (x 0).val = (k 0).val; rw [e0, h0]; omega
  | ⟨1, _⟩ => show win0_0.index t (1 : Fin 3) * 512 + 1 * (x 1).val = (k 1).val; rw [e1, h1]; omega
  | ⟨2, _⟩ => show win0_0.index t (2 : Fin 3) * 64 + 1 * (x 2).val = (k 2).val; rw [e2, h2]; omega

/-- The key block at point t: all of head `t mod 64`. -/
theorem iblk1_apply (c : Dev nD) (t : Fin cfg0.N) (x : S1x2048x64.Idx) (k : SG.Idx)
    (h0 : (k 0).val = t.val % 64) (h1 : (k 1).val = (x 1).val) (h2 : (k 2).val = (x 2).val) :
    (iblk m c 1 t : FVec Ideal S1x2048x64 .bf16) x = (V m c main_v7 : SG.Idx → EReal) k := by
  obtain ⟨-, -, -, -, -, -, e0, e1, e2, -⟩ := idx_facts t
  unfold iblk
  rw [View.read_apply]
  show V m c main_v7 _ = V m c main_v7 _
  refine congrArg (V m c main_v7) (funext fun a => Fin.ext ?_)
  have b0 : (x 0).val < 1 := (x 0).isLt
  match a with
  | ⟨0, _⟩ => show win0_1.index t (0 : Fin 3) * 1 + 1 * (x 0).val = (k 0).val; rw [e0, h0]; omega
  | ⟨1, _⟩ => show win0_1.index t (1 : Fin 3) * 2048 + 1 * (x 1).val = (k 1).val; rw [e1, h1]; omega
  | ⟨2, _⟩ => show win0_1.index t (2 : Fin 3) * 64 + 1 * (x 2).val = (k 2).val; rw [e2, h2]; omega

/-- The value block at point t: all of head `t mod 64`. -/
theorem iblk2_apply (c : Dev nD) (t : Fin cfg0.N) (x : S1x2048x64.Idx) (k : SG.Idx)
    (h0 : (k 0).val = t.val % 64) (h1 : (k 1).val = (x 1).val) (h2 : (k 2).val = (x 2).val) :
    (iblk m c 2 t : FVec Ideal S1x2048x64 .bf16) x = (V m c main_v11 : SG.Idx → EReal) k := by
  obtain ⟨-, -, -, -, -, -, -, -, -, e0, e1, e2, -⟩ := idx_facts t
  unfold iblk
  rw [View.read_apply]
  show V m c main_v11 _ = V m c main_v11 _
  refine congrArg (V m c main_v11) (funext fun a => Fin.ext ?_)
  have b0 : (x 0).val < 1 := (x 0).isLt
  match a with
  | ⟨0, _⟩ => show win0_2.index t (0 : Fin 3) * 1 + 1 * (x 0).val = (k 0).val; rw [e0, h0]; omega
  | ⟨1, _⟩ => show win0_2.index t (1 : Fin 3) * 2048 + 1 * (x 1).val = (k 1).val; rw [e1, h1]; omega
  | ⟨2, _⟩ => show win0_2.index t (2 : Fin 3) * 64 + 1 * (x 2).val = (k 2).val; rw [e2, h2]; omega

/-- The bias block at point t: rows `512 (t / 64) + r`. -/
theorem iblk3_apply (c : Dev nD) (t : Fin cfg0.N) (x : S512x2048.Idx) (k : SB2.Idx)
    (h0 : (k 0).val = t.val / 64 * 512 + (x 0).val) (h1 : (k 1).val = (x 1).val) :
    (iblk m c 3 t : FVec Ideal S512x2048 .f32) x = (V m c main_v12 : SB2.Idx → EReal) k := by
  obtain ⟨-, -, -, -, -, -, -, -, -, -, -, -, e0, e1⟩ := idx_facts t
  unfold iblk
  rw [View.read_apply]
  show V m c main_v12 _ = V m c main_v12 _
  refine congrArg (V m c main_v12) (funext fun a => Fin.ext ?_)
  match a with
  | ⟨0, _⟩ => show win0_3.index t (0 : Fin 2) * 512 + 1 * (x 0).val = (k 0).val; rw [e0, h0]; omega
  | ⟨1, _⟩ => show win0_3.index t (1 : Fin 2) * 2048 + 1 * (x 1).val = (k 1).val; rw [e1, h1]; omega

/-- Where element y of the output block at point t sits in the output array. -/
theorem emb4_val (t : Fin cfg0.N) (y : S1x512x64.Idx) :
    ((((cfg0.win 4).blk t).view.emb y : SG.Idx) 0).val = t.val % 64
    ∧ ((((cfg0.win 4).blk t).view.emb y : SG.Idx) 1).val = t.val / 64 * 512 + (y 1).val
    ∧ ((((cfg0.win 4).blk t).view.emb y : SG.Idx) 2).val = (y 2).val := by
  obtain ⟨e0, e1, e2, -⟩ := idx_facts t
  have b0 : (y 0).val < 1 := (y 0).isLt
  refine ⟨?_, ?_, ?_⟩
  · show win0_4.index t (0 : Fin 3) * 1 + 1 * (y 0).val = _; rw [e0]; omega
  · show win0_4.index t (1 : Fin 3) * 512 + 1 * (y 1).val = _; rw [e1]; omega
  · show win0_4.index t (2 : Fin 3) * 64 + 1 * (y 2).val = _; rw [e2]; omega

/-! ## What a point writes back -/

/-- The stored block at an element y, given that the loaded blocks are the arrays' entries the output index i asks for, is
    the attention function at i. -/
theorem point_eq (Q K W : SG.Idx → EReal) (B : SB2.Idx → EReal)
    (x0 : FVec Ideal S1x512x64 .bf16) (x1 x2 : FVec Ideal S1x2048x64 .bf16) (x3 : FVec Ideal S512x2048 .f32)
    (y : S1x512x64.Idx) (i : SG.Idx)
    (hQ : ∀ d : Fin 64, x0 (ix3 (0 : Fin 1) (y 1) d) = Q (ix3 (i 0) (i 1) d))
    (hK : ∀ (k : Fin 2048) (d : Fin 64), x1 (ix3 (0 : Fin 1) k d) = K (ix3 (i 0) k d))
    (hW : ∀ k : Fin 2048, x2 (ix3 (0 : Fin 1) k (y 2)) = W (ix3 (i 0) k (i 2)))
    (hB : ∀ k : Fin 2048, x3 (ix2 (y 1) k) = B (ix2 (i 1) k)) :
    k0_pay1 (F := Ideal) x0 x1 x2 x3 y = attn3 Q K W B i := by
  obtain ⟨u, r, v, rfl⟩ : ∃ (u : Fin 1) (r : Fin 512) (v : Fin 64), y = ix3 u r v := ⟨y 0, y 1, y 2, eq_ix3 y⟩
  have hQ' : ∀ d : Fin 64, x0 (ix3 (0 : Fin 1) r d) = Q (ix3 (i 0) (i 1) d) := hQ
  have hW' : ∀ k : Fin 2048, x2 (ix3 (0 : Fin 1) k v) = W (ix3 (i 0) k (i 2)) := hW
  have hB' : ∀ k : Fin 2048, x3 (ix2 r k) = B (ix2 (i 1) k) := hB
  rw [Body.pay_apply]
  unfold attn3
  simp only [hQ', hK, hW', hB']

/-- WHAT POINT t WRITES BACK is block t of the attention function of the arrays the region finds. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz3]
  simp only [View.ld_unit_zero (S := S1x512x64) hz3, View.ld_unit_zero (S := S1x2048x64) hz3, View.ld_unit_zero (S := S512x2048) hz2]
  funext j
  show k0_pay1 (F := Ideal) (iblk m c 0 t) (iblk m c 1 t) (iblk m c 2 t) (iblk m c 3 t) j
    = G m c (((cfg0.win 4).blk t).view.emb j)
  obtain ⟨g0, g1, g2⟩ := emb4_val t j
  refine point_eq (V m c main_v3) (V m c main_v7) (V m c main_v11) (V m c main_v12) (iblk m c 0 t) (iblk m c 1 t)
    (iblk m c 2 t) (iblk m c 3 t) j (((cfg0.win 4).blk t).view.emb j) ?_ ?_ ?_ ?_
  · intro d; exact iblk0_apply m c t _ _ g0 g1 rfl
  · intro k d; exact iblk1_apply m c t _ _ g0 rfl rfl
  · intro k; exact iblk2_apply m c t _ _ g0 rfl g2
  · intro k; exact iblk3_apply m c t _ _ g1 rfl

/-! ## The blocks tile the output array -/

/-- An index of the array is in point t's block iff each coordinate is in the block's range on its axis. -/
theorem mem_blk (t : Fin cfg0.N) (i : SG.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v13).slice (win0_4.rect t)).set ↔ _
  rw [View.set_slice_whole, Rect.mem_set_unit]
  exact Iff.rfl

/-- Every index (g, n, v) of the output is in the block of the point with head g and query block `n / 512`. -/
theorem cover (i : SG.Idx) : ∃ t : Fin cfg0.N, (cfg0.win 4).flush t = true ∧ i ∈ ((cfg0.win 4).blk t).view.set := by
  have hN : cfg0.N = 256 := N_0
  have h0 : (i 0).val < 64 := (i 0).isLt
  have h1 : (i 1).val < 2048 := (i 1).isLt
  have h2 : (i 2).val < 64 := (i 2).isLt
  obtain ⟨t, tv⟩ : ∃ t : Fin cfg0.N, t.val = (i 1).val / 512 * 64 + (i 0).val :=
    ⟨⟨(i 1).val / 512 * 64 + (i 0).val, by rw [hN]; omega⟩, rfl⟩
  refine ⟨t, flush0_4 t, ?_⟩
  rw [mem_blk]
  obtain ⟨e0, e1, e2, -⟩ := idx_facts t
  intro a
  match a with
  | ⟨0, _⟩ => show win0_4.index t (0 : Fin 3) * 1 ≤ (i 0).val ∧ (i 0).val < win0_4.index t (0 : Fin 3) * 1 + 1; rw [e0, tv]; omega
  | ⟨1, _⟩ => show win0_4.index t (1 : Fin 3) * 512 ≤ (i 1).val ∧ (i 1).val < win0_4.index t (1 : Fin 3) * 512 + 512; rw [e1, tv]; omega
  | ⟨2, _⟩ => show win0_4.index t (2 : Fin 3) * 64 ≤ (i 2).val ∧ (i 2).val < win0_4.index t (2 : Fin 3) * 64 + 64; rw [e2]; omega

/-- THE OUTPUT ARRAY after the region: the attention function of the arrays the region finds. -/
theorem final (c : Dev nD) : (dats m 0 c).arrAt 4 cfg0.N = G m c :=
  (dats m 0 c).arrAt_eq_of_cover 4 (G m c) (fun t _ => flushed_eq m c t) cover

/-! ## The host operations before the region -/

/-- The queries the region finds: the first argument split into heads, batch and head axes merged (the narrowing to
    bf16 is the identity on extended reals). -/
theorem V_queries (c : Dev nD) : (V m c main_v3 : SG.Idx → EReal)
    = shapeCast SG (heads (m ((c.tc : Thread nD τ).loc main_arg0)) shapeCasts_S4x2048x1024_S4x2048x64x16
        transposes_S4x2048x64x16_S4x16x2048x64_0_3_1_2) shapeCasts_S4x16x2048x64_S64x2048x64 := by
  show StableHlo.after hostOps0 (fun b => m (c, b)) (Proc.devRef .tc main_v3) = _
  after_results
  rfl

/-- The keys likewise, from the second argument. -/
theorem V_keys (c : Dev nD) : (V m c main_v7 : SG.Idx → EReal)
    = shapeCast SG (heads (m ((c.tc : Thread nD τ).loc main_arg1)) shapeCasts_S4x2048x1024_S4x2048x64x16
        transposes_S4x2048x64x16_S4x16x2048x64_0_3_1_2) shapeCasts_S4x16x2048x64_S64x2048x64 := by
  show StableHlo.after hostOps0 (fun b => m (c, b)) (Proc.devRef .tc main_v7) = _
  after_results
  rfl

/-- The values likewise, from the third argument. -/
theorem V_values (c : Dev nD) : (V m c main_v11 : SG.Idx → EReal)
    = shapeCast SG (heads (m ((c.tc : Thread nD τ).loc main_arg2)) shapeCasts_S4x2048x1024_S4x2048x64x16
        transposes_S4x2048x64x16_S4x16x2048x64_0_3_1_2) shapeCasts_S4x16x2048x64_S64x2048x64 := by
  show StableHlo.after hostOps0 (fun b => m (c, b)) (Proc.devRef .tc main_v11) = _
  after_results
  rfl

/-- The bias the region finds: the fourth argument with its two unit axes dropped. -/
theorem V_bias (c : Dev nD) : (V m c main_v12 : SB2.Idx → EReal)
    = shapeCast SB2 (m ((c.tc : Thread nD τ).loc main_arg3)) shapeCasts_S1x1x2048x2048_S2048x2048 := by
  show StableHlo.after hostOps0 (fun b => m (c, b)) (Proc.devRef .tc main_v12) = _
  after_results
  rfl

/-! ## The host operations after the region, and the program's result -/

/-- The two reshapes after the region: the result is the output array with its leading axis split into batches and heads,
    then reshaped to [4, 2048, 1024]. -/
theorem tail_apply (W : Valuation τ sig (Elt Ideal)) :
    StableHlo.after hostOps1 W (Proc.devRef .tc main_v15)
      = shapeCast S4x2048x1024 (shapeCast S4x16x2048x64 (W (Proc.devRef .tc main_v13)) shapeCasts_S64x2048x64_S4x16x2048x64)
          shapeCasts_S4x16x2048x64_S4x2048x1024 := by
  after_results
  rfl

/-- The program's result as a function of its arguments: the head-split attention, reshaped to [4, 2048, 1024]. -/
abbrev result (c : Dev nD) : S4x2048x1024.Idx → EReal :=
  shapeCast S4x2048x1024
    (attnHeads
      (heads (m ((c.tc : Thread nD τ).loc main_arg0)) shapeCasts_S4x2048x1024_S4x2048x64x16 transposes_S4x2048x64x16_S4x16x2048x64_0_3_1_2)
      (heads (m ((c.tc : Thread nD τ).loc main_arg1)) shapeCasts_S4x2048x1024_S4x2048x64x16 transposes_S4x2048x64x16_S4x16x2048x64_0_3_1_2)
      (heads (m ((c.tc : Thread nD τ).loc main_arg2)) shapeCasts_S4x2048x1024_S4x2048x64x16 transposes_S4x2048x64x16_S4x16x2048x64_0_3_1_2)
      (m ((c.tc : Thread nD τ).loc main_arg3)))
    shapeCasts_S4x16x2048x64_S4x2048x1024

/-- THE RESULT BUFFER after the host's last lines. -/
theorem result_eq (c : Dev nD) :
    Pipeline.afterTail₀ cfgs (dats m) 0 (V0 m) [hostOps1] c main_v15 = result m c := by
  have hw : Pipeline.withArrays (cfgs 0).spec c (V0 m c) (fun w => (dats m 0 c).arrAt w (cfgs 0).N) (Proc.devRef .tc main_v13)
      = G m c :=
    (Pipeline.withArrays_arr spec0 launch0.win.arr_inj c (V0 m c) (fun w => (dats m 0 c).arrAt w cfg0.N) 4).trans (final m c)
  unfold Pipeline.afterTail₀
  show StableHlo.after hostOps1 _ (Proc.devRef .tc main_v15) = _
  rw [tail_apply, hw]
  unfold G
  rw [V_queries, V_keys, V_values, V_bias]
  exact congrArg (fun X => shapeCast S4x2048x1024 X shapeCasts_S4x16x2048x64_S4x2048x1024)
    (heads_eq _ _ _ _ shapeCasts_S4x16x2048x64_S64x2048x64 shapeCasts_S1x1x2048x2048_S2048x2048 shapeCasts_S64x2048x64_S4x16x2048x64)

/-- THE RUN, READ: every weakly fair execution of the kernel program ends with the result buffer at `result` of the
    arguments, and the arguments unchanged. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v15 (Pipeline.mem_restRefs_of main_v15 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Blocks

end
-- ==== Proof.ReferenceAttention.lean ====
/-
  The reference program's result is the head-split attention of Softmax.lean and HeadLayout.lean, reshaped.

  The reference splits the three [4, 2048, 1024] arguments into heads (a reshape to [4, 2048, 64, 16] and a transpose
  to [4, 16, 2048, 64]), forms the scores of every query row against the 2048 keys of its head divided by 8, subtracts
  the bias broadcast over batches and heads, takes the softmax along the key axis with the row maximum subtracted, and
  applies it to the head's values; the result is reshaped to [4, 2048, 1024]. Read at an index, operation by
  operation, this is `attnHeads` of the head-split arguments: the row maximum is the fold of `max` over the key axis
  from `-∞` (taking the maximum with `-∞` once more changes nothing), and the row sum starts from `0`.
-/
import proofs.«156870_j36146444763439_2_alg».proof.Proof.Gen.ReferenceIdeal.Read
import proofs.«156870_j36146444763439_2_alg».proof.Proof.HeadLayout

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attention

variable (x0 x1 x2 : (⟨S4x2048x1024, .f32⟩ : BufTy).Contents (Elt Ideal)) (x3 : (⟨S1x1x2048x2048, .f32⟩ : BufTy).Contents (Elt Ideal))

/-! ## The index maps of the generated stages, by coordinates -/

theorem lidx4_eq (b : Fin 4) (h : Fin 16) (n m : Fin 2048) (d : Fin 64) : lidx_main_v4 (ix4 b h n m) d = ix4 b h n d :=
  funext fun a => by match a with | ⟨0, _⟩ => rfl | ⟨1, _⟩ => rfl | ⟨2, _⟩ => rfl | ⟨3, _⟩ => rfl
theorem ridx4_eq (b : Fin 4) (h : Fin 16) (n m : Fin 2048) (d : Fin 64) : ridx_main_v4 (ix4 b h n m) d = ix4 b h m d :=
  funext fun a => by match a with | ⟨0, _⟩ => rfl | ⟨1, _⟩ => rfl | ⟨2, _⟩ => rfl | ⟨3, _⟩ => rfl
theorem idx7_eq (b : Fin 4) (h : Fin 16) (n m : Fin 2048) : idx_main_v7 (ix4 b h n m) = ix4 (0 : Fin 1) (0 : Fin 1) n m :=
  funext fun a => by match a with | ⟨0, _⟩ => rfl | ⟨1, _⟩ => rfl | ⟨2, _⟩ => rfl | ⟨3, _⟩ => rfl
theorem idx13_eq (b : Fin 4) (h : Fin 16) (n m : Fin 2048) : idx_main_v12 (idx_main_v13 (ix4 b h n m)) = ix3 b h n :=
  funext fun a => by match a with | ⟨0, _⟩ => rfl | ⟨1, _⟩ => rfl | ⟨2, _⟩ => rfl
theorem idx18_eq (b : Fin 4) (h : Fin 16) (n m : Fin 2048) : idx_main_v17 (idx_main_v18 (ix4 b h n m)) = ix3 b h n :=
  funext fun a => by match a with | ⟨0, _⟩ => rfl | ⟨1, _⟩ => rfl | ⟨2, _⟩ => rfl
theorem idx16_eq (b : Fin 4) (h : Fin 16) (n k : Fin 2048) : idx_main_v16 (ix3 b h n) k = ix4 b h n k :=
  funext fun a => by match a with | ⟨0, _⟩ => rfl | ⟨1, _⟩ => rfl | ⟨2, _⟩ => rfl | ⟨3, _⟩ => rfl
theorem lidx22_eq (b : Fin 4) (h : Fin 16) (n : Fin 2048) (v : Fin 64) (m : Fin 2048) : lidx_main_v22 (ix4 b h n v) m = ix4 b h n m :=
  funext fun a => by match a with | ⟨0, _⟩ => rfl | ⟨1, _⟩ => rfl | ⟨2, _⟩ => rfl | ⟨3, _⟩ => rfl
theorem ridx22_eq (b : Fin 4) (h : Fin 16) (n : Fin 2048) (v : Fin 64) (m : Fin 2048) : ridx_main_v22 (ix4 b h n v) m = ix4 b h m v :=
  funext fun a => by match a with | ⟨0, _⟩ => rfl | ⟨1, _⟩ => rfl | ⟨2, _⟩ => rfl | ⟨3, _⟩ => rfl

/-- The index over (b, h, n) with key `k` inserted on the reduced axis is (b, h, n, k). -/
theorem lift_eq (hr : S4x16x2048x2048.Reduces [3] S4x16x2048) (b : Fin 4) (h : Fin 16) (n k : Fin 2048) :
    hr.lift (ix3 b h n) k = ix4 b h n k :=
  funext fun a => Fin.ext (by match a with | ⟨0, _⟩ => rfl | ⟨1, _⟩ => rfl | ⟨2, _⟩ => rfl | ⟨3, _⟩ => rfl)

/-! ## The stages, read at an index -/

/-- The scores of query row (b, h, n). -/
abbrev sRow (b : Fin 4) (h : Fin 16) (n : Fin 2048) : Fin 2048 → EReal :=
  fun m => val_main_v8 (F := Ideal) x0 x1 x3 (ix4 b h n m)

/-- The biased, scaled score of query (b, h, n) against key m. -/
theorem score_apply (b : Fin 4) (h : Fin 16) (n m : Fin 2048) :
    val_main_v8 (F := Ideal) x0 x1 x3 (ix4 b h n m)
      = scoreRow (fun d => val_main_v1 (F := Ideal) x0 (ix4 b h n d)) (fun m' d => val_main_v3 (F := Ideal) x1 (ix4 b h m' d))
          (fun m' => x3 (ix4 (0 : Fin 1) (0 : Fin 1) n m')) m := by
  rw [val_main_v8_apply, val_main_v6_apply, val_main_v4_apply, val_main_v5_apply, val_main_cst_apply, val_main_v7_apply]
  simp only [lidx4_eq, ridx4_eq, idx7_eq]
  rfl

/-- The row maximum: the host's reduction over the key axis is the fold of `max` over the keys. -/
theorem max_apply (b : Fin 4) (h : Fin 16) (n : Fin 2048) :
    val_main_v11 (F := Ideal) x0 x1 x3 (ix3 b h n) = rowMax (sRow x0 x1 x3 b h n) := by
  have hr : S4x16x2048x2048.Reduces [3] S4x16x2048 := by decide
  have e9 : val_main_v9 (F := Ideal) x0 x1 x3 (ix3 b h n) = rowMax (sRow x0 x1 x3 b h n) := by
    unfold val_main_v9
    rw [Host.reduce_eq_fold_single FloatOps.maximumf _ _ reducesTo_S4x16x2048x2048_S4x16x2048_d3 hr h_S_]
    have e : (val_main_v8 (F := Ideal) x0 x1 x3 ∘ hr.lift (ix3 b h n)) = sRow x0 x1 x3 b h n :=
      funext fun k => congrArg (val_main_v8 (F := Ideal) x0 x1 x3) (lift_eq hr b h n k)
    rw [e]
    rfl
  rw [val_main_v11_apply, val_main_v10_apply, val_main_cst_1_apply, e9]
  exact max_negInf_rowMax _

/-- The shifted exponentials. -/
theorem exp_apply (b : Fin 4) (h : Fin 16) (n m : Fin 2048) :
    val_main_v15 (F := Ideal) x0 x1 x3 (ix4 b h n m) = rowExp (sRow x0 x1 x3 b h n) m := by
  rw [val_main_v15_apply, val_main_v14_apply, val_main_v13_apply, val_main_v12_apply, idx13_eq, max_apply]
  rfl

/-- The row sums, from the initial value `0`. -/
theorem sum_apply (b : Fin 4) (h : Fin 16) (n : Fin 2048) :
    val_main_v16 (F := Ideal) x0 x1 x3 (ix3 b h n) = ∑ k : Fin 2048, rowExp (sRow x0 x1 x3 b h n) k := by
  rw [val_main_v16_apply, val_main_cst_2_apply]
  simp only [idx16_eq, exp_apply]
  rw [Ideal.ofBits_def, Ideal.ofBits_zero_f32, zero_add]

/-- The softmax weights. -/
theorem prob_apply (b : Fin 4) (h : Fin 16) (n m : Fin 2048) :
    val_main_v19 (F := Ideal) x0 x1 x3 (ix4 b h n m) = rowProb (sRow x0 x1 x3 b h n) m := by
  rw [val_main_v19_apply, val_main_v18_apply, val_main_v17_apply, idx18_eq, sum_apply, exp_apply]
  rfl

/-- The weighted values: the reference's attention output, head by head, is `attnHeads` of the head-split arguments. -/
theorem heads_out : val_main_v22 (F := Ideal) x0 x1 x2 x3
    = attnHeads (val_main_v1 (F := Ideal) x0) (val_main_v3 (F := Ideal) x1) (val_main_v21 (F := Ideal) x2) x3 := by
  funext i
  obtain ⟨b, h, n, v, rfl⟩ : ∃ (b : Fin 4) (h : Fin 16) (n : Fin 2048) (v : Fin 64), i = ix4 b h n v :=
    ⟨i 0, i 1, i 2, i 3, eq_ix4 i⟩
  rw [val_main_v22_apply]
  unfold attnHeads attnRow
  refine Finset.sum_congr rfl fun m _ => ?_
  rw [lidx22_eq, ridx22_eq, prob_apply]
  have hs : sRow x0 x1 x3 b h n
      = scoreRow (fun d => val_main_v1 (F := Ideal) x0 (ix4 b h n d)) (fun m' d => val_main_v3 (F := Ideal) x1 (ix4 b h m' d))
          (fun m' => x3 (ix4 (0 : Fin 1) (0 : Fin 1) n m')) := funext fun m' => score_apply x0 x1 x3 b h n m'
  rw [hs]

/-- The reference's result: `attnHeads` of the head-split arguments, reshaped to [4, 2048, 1024]. -/
theorem result_eq : val_main_v23 (F := Ideal) x0 x1 x2 x3
    = shapeCast S4x2048x1024 (attnHeads (val_main_v1 (F := Ideal) x0) (val_main_v3 (F := Ideal) x1) (val_main_v21 (F := Ideal) x2) x3)
        shapeCasts_S4x16x2048x64_S4x2048x1024 := by
  unfold val_main_v23
  rw [heads_out]

end Cert.ReferenceIdeal.RefValue

end
-- ==== Proof.lean ====
/-
  Multi-head attention with a subtracted bias, as a tiled kernel and as a whole-array reference: the two idealized
  programs compute one function of their arguments on the extended reals.

  Both programs split the three [4, 2048, 1024] arguments into 16 heads of 64 coordinates. For every batch b, head h and
  query row n the scores against the 2048 keys of the head are `(∑ d, q d · k m d) / 8 − bias n m`; the row is normalised
  by the softmax taken with the row's maximum subtracted, and applied to the head's values; the [4, 16, 2048, 64] result is
  reshaped to [4, 2048, 1024] (Softmax.lean, HeadLayout.lean). The reference does this on whole arrays
  (ReferenceAttention.lean). The kernel merges batch and head into one axis of 64, and on a 4 × 64 grid computes, per point,
  512 query rows of one head against the head's whole keys and values, scaling by 0.125 where the reference divides by 8
  (KernelBody.lean); the 256 blocks tile the output, which the host then splits and reshapes as the reference does
  (KernelBlocks.lean). The two differ only in spelling: 0.125 is exactly 1/8, and a product with 1/8 is the quotient by 8
  on every extended real; the reference's extra maximum with −∞ and its sum started from 0 change nothing; the merged and
  split arrangements of the head axes hold the same entries at the same row-major positions. No step needs the inputs
  finite, so the precondition is not opened. The three frames are the generated frame runs (the reference's is its run
  with the result dropped), and the idealization rewrote nothing.
-/
import proofs.«156870_j36146444763439_2_alg».proof.Defs
import proofs.«156870_j36146444763439_2_alg».proof.Proof.Gen.Kernel
import proofs.«156870_j36146444763439_2_alg».proof.Proof.Gen.Kernel.Skeleton
import proofs.«156870_j36146444763439_2_alg».proof.Proof.Gen.Kernel.Launch
import proofs.«156870_j36146444763439_2_alg».proof.Proof.Gen.Kernel.Points
import proofs.«156870_j36146444763439_2_alg».proof.Proof.Gen.Kernel.Frame
import proofs.«156870_j36146444763439_2_alg».proof.Proof.Gen.KernelIdeal
import proofs.«156870_j36146444763439_2_alg».proof.Proof.Gen.KernelIdeal.Skeleton
import proofs.«156870_j36146444763439_2_alg».proof.Proof.Gen.KernelIdeal.Launch
import proofs.«156870_j36146444763439_2_alg».proof.Proof.Gen.KernelIdeal.Points
import proofs.«156870_j36146444763439_2_alg».proof.Proof.Gen.KernelIdeal.Frame
import proofs.«156870_j36146444763439_2_alg».proof.Proof.Gen.ReferenceIdeal
import proofs.«156870_j36146444763439_2_alg».proof.Proof.Gen.ReferenceIdeal.Run
import proofs.«156870_j36146444763439_2_alg».proof.Proof.Gen.ReferenceIdeal.Read
import proofs.«156870_j36146444763439_2_alg».proof.Proof.Gen.Pre_finite_inputs
import proofs.«156870_j36146444763439_2_alg».proof.Proof.KernelBlocks
import proofs.«156870_j36146444763439_2_alg».proof.Proof.ReferenceAttention
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel program's result and the reference's are the head-split attention of the
    arguments, reshaped: the same array. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
